-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel

variable [Facts]

def fn {F : FTy → Type} [FloatOps F] (main_arg0 : FVec F S65536x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  main_v3
-- ==== Kernel.lean ====
abbrev S65536x1024 : Shape := ⟨2, ![65536, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 2
  | .vmem => 4
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  natLt_1_32 : 1 < 32
  broadcasts_S1024x1_S1024x1024 : S1024x1.Broadcasts S1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S65536x1024.size a
  hwx0_1 : ∀ i : grid0.Coords, EltTy.bits .f32 = 32 ∨ (Rect.block (s := S65536x1024) S1024x1024.size (cc0_transform_1 i) (hinb0_1 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S65536x1024 : Shape := ⟨2, ![65536, 1024]⟩
abbrev S_ : Shape := ⟨0, ![]⟩
abbrev S65536 : Shape := ⟨1, ![65536]⟩
abbrev S65536x1 : Shape := ⟨2, ![65536, 1]⟩

abbrev nBuf : Space → Nat
  | .hbm => 15
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S_, .f32⟩
  | .hbm, ⟨2, _⟩ => ⟨S65536x1024, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S_, .f32⟩
  | .hbm, ⟨7, _⟩ => ⟨S65536, .f32⟩
  | .hbm, ⟨8, _⟩ => ⟨S65536, .i1⟩
  | .hbm, ⟨9, _⟩ => ⟨S65536x1, .i1⟩
  | .hbm, ⟨10, _⟩ => ⟨S_, .f32⟩
  | .hbm, ⟨11, _⟩ => ⟨S65536x1024, .f32⟩
  | .hbm, ⟨12, _⟩ => ⟨S65536x1024, .f32⟩
  | .hbm, ⟨13, _⟩ => ⟨S65536x1024, .i1⟩
  | .hbm, ⟨14, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S_S65536x1024 : S_.BroadcastsInDim S65536x1024 (![] : Fin 0 → Fin S65536x1024.rank)
  reducesTo_S65536x1024_S65536_d1 : S65536x1024.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x1024_0_1 : S65536x1.BroadcastsInDim S65536x1024 (![0, 1] : Fin 2 → Fin S65536x1024.rank)

variable [Facts₀]

class Facts : Prop extends Facts₀ where

variable [Facts]
-- ==== Proof.ShiftedRows.lean ====
/-
  The function both programs compute, on an array of 65536 rows of 1024 extended reals.

  Every entry is doubled. A row whose doubled entries sum to more than ten is then lowered by one,
  entry by entry; every other row is left as doubled:

      out (r, c) = 2 · x (r, c) − [ Σ_k 2 · x (r, k) > 10 ].

  The kernel forms the bracket as a number — the comparison's bit, widened to a 32-bit integer and read
  as a float — and subtracts it from the whole row; the reference chooses, by the same bit, between the
  doubled entry minus one and the doubled entry. The two readings of the bit are joined here
  (`sub_flag`, `select_sub`): a set bit reads as the number one, a clear bit as zero, and
  subtracting zero changes nothing on the extended reals. Neither law needs the entries to be finite.
-/
import Idealize.ShloMosaic.PureOps.Ideal
import Idealize.ShloMosaic.Lib.ValueIdx

noncomputable section

open Idealize.ShloMosaic Idealize.ShloMosaic.ValueIdx

namespace Cert.ShiftedRows

/-- The array's shape: 65536 rows of 1024 entries. -/
abbrev Arr : Shape := ⟨2, ![65536, 1024]⟩

/-- An entry doubled (the factor is the f32 word of 2, the same word in both programs). -/
def doubled (x : Arr.Idx → EReal) (i : Arr.Idx) : EReal := x i * Ideal.ofBits .f32 0x40000000#32

/-- The sum of a row's doubled entries. -/
def rowSum (x : Arr.Idx → EReal) (r : Fin 65536) : EReal := ∑ k : Fin 1024, doubled x (ix2 r k)

/-- What is taken off every entry of row `r`: one when the row's sum exceeds ten (the f32 word of 10,
    the same word in both programs), nothing otherwise. -/
def lowering (x : Arr.Idx → EReal) (r : Fin 65536) : EReal :=
  if Ideal.ofBits .f32 0x41200000#32 < rowSum x r then 1 else 0

/-- The result at row `r`, column `c`. -/
def entry (x : Arr.Idx → EReal) (r : Fin 65536) (c : Fin 1024) : EReal := doubled x (ix2 r c) - lowering x r

/-- The result as an array. -/
def shifted (x : Arr.Idx → EReal) : Arr.Idx → EReal := fun i => entry x (i 0) (i 1)

theorem shifted_ix2 (x : Arr.Idx → EReal) (r : Fin 65536) (c : Fin 1024) : shifted x (ix2 r c) = entry x r c := rfl

/-! ## The comparison's bit, read two ways -/

/-- The f32 word of 1.0 is the number one. -/
theorem one_word : Ideal.ofBits .f32 0x3F800000#32 = 1 := by
  simp [Ideal.ofBits, Ideal.ieee, -EReal.coe_mul]; norm_num

theorem cmp_gt {s t : EReal} (h : t < s) : Ideal.cmp .ogt s t = 1#1 := by simp [Ideal.cmp, h]

theorem cmp_not_gt {s t : EReal} (h : ¬ t < s) : Ideal.cmp .ogt s t = 0#1 := by simp [Ideal.cmp, h]

/-- The kernel's reading: the bit of `s > t`, widened to 32 bits and read as a signed integer, is the number
    one or zero. -/
theorem sub_flag (y s t : EReal) :
    y - ((((Ideal.cmp .ogt s t).setWidth 32).toInt : ℝ) : EReal) = y - (if t < s then 1 else 0) := by
  by_cases h : t < s
  · rw [cmp_gt h, if_pos h]
    have e : ((1#1 : BitVec 1).setWidth 32).toInt = 1 := by decide
    rw [e]; norm_num
  · rw [cmp_not_gt h, if_neg h]
    have e : ((0#1 : BitVec 1).setWidth 32).toInt = 0 := by decide
    rw [e]; norm_num

/-- The reference's reading: by the same bit, the value less one (the f32 word of 1.0) or the value itself. -/
theorem select_sub (y s t : EReal) :
    Scalar.select (Ideal.cmp .ogt s t) (y - Ideal.ofBits .f32 0x3F800000#32) y = y - (if t < s then 1 else 0) := by
  by_cases h : t < s
  · rw [cmp_gt h, select_one, if_pos h, one_word]
  · rw [cmp_not_gt h, select_zero, if_neg h, sub_zero]

end Cert.ShiftedRows

end
-- ==== Proof.KernelBlock.lean ====
/-
  One block of the kernel's output, entry by entry.

  The kernel works on blocks of 1024 whole rows. From the block it loaded, the body leaves in the output block, at
  row `p` and column `q`, the doubled entry less the number read off the comparison's bit of row `p`: the block's
  rows are whole rows of the array, so the sum along a block's row IS the array row's sum, and the block's entry is
  the array's `ShiftedRows.entry` at row `1024·t + p` when the block is the `t`-th.
-/
import proofs.«152421_j76166950027845_2_alg».proof.Proof.KernelIdealValue
import proofs.«152421_j76166950027845_2_alg».proof.Proof.ShiftedRows
import Idealize.ShloMosaic.PureOps.Ideal.Laws
import Idealize.ShloMosaic.Lib.ValueIdx

noncomputable section

open Idealize.ShloMosaic Idealize.ShloMosaic.ValueIdx

namespace Cert.KernelIdeal.Block

open Cert.KernelIdeal Cert.KernelIdeal.Gen Cert.KernelIdeal.ValueP Cert.ShiftedRows

/-- Row `p` of the `t`-th block of 1024 rows is row `1024·t + p` of the array. -/
def rowOf (t : Fin 64) (p : Fin 1024) : Fin 65536 := ⟨1024 * t.val + p.val, by omega⟩

/-- The lane sum of the doubled block at row `p` is the array row's sum of doubled entries: the `k`-th term of the
    reduction over axis 1, read at (p), is the block's entry (p, k). -/
theorem block_rowSum (x : Arr.Idx → EReal) (t : Fin 64) (P0 : Vec Ideal S1024x1024 .f32)
    (hP : ∀ p q : Fin 1024, P0 (ix2 p q) = x (ix2 (rowOf t p) q)) (p q : Fin 1024) :
    (multiReduction (F := Ideal) .add [1] S1024 (mulf P0 (broadcast S1024x1024 (Scalar.ofBits .f32 0x40000000#32))) 0x00000000#32
        reduces_S1024x1024_S1024 (.inl rfl) rfl) (ix1_1 (ix2 p q)) = rowSum x (rowOf t p) := by
  refine (Ideal.multiReduction_add_single _ _ reduces_S1024x1024_S1024 (.inl rfl) rfl _).trans ?_
  show ∑ k : Fin 1024, (mulf (F := Ideal) (φ := .f32) P0 (broadcast S1024x1024 (Scalar.ofBits .f32 0x40000000#32)))
        (reduces_S1024x1024_S1024.lift (ix1_1 (ix2 p q)) k) = ∑ k : Fin 1024, doubled x (ix2 (rowOf t p) k)
  refine Finset.sum_congr rfl fun k _ => ?_
  have hl : reduces_S1024x1024_S1024.lift (ix1_1 (ix2 p q)) k = ix2 p k :=
    funext fun a => Fin.ext (by match a with | ⟨0, _⟩ => rfl | ⟨1, _⟩ => rfl)
  rw [hl]
  show P0 (ix2 p k) * Ideal.ofBits .f32 0x40000000#32 = x (ix2 (rowOf t p) k) * Ideal.ofBits .f32 0x40000000#32
  rw [hP]

/-- What the body leaves at (p, q) of the output block, when the loaded block is the `t`-th block of rows of `x`. -/
theorem block_entry (x : Arr.Idx → EReal) (t : Fin 64) (P0 : Vec Ideal S1024x1024 .f32)
    (hP : ∀ p q : Fin 1024, P0 (ix2 p q) = x (ix2 (rowOf t p) q)) (p q : Fin 1024) :
    E1 (F := Ideal) P0 (ix2 p q) = entry x (rowOf t p) q := by
  have h0 : ix1_0 (ix2 p q) = ix2 p q :=
    funext fun a => Fin.ext (by match a with | ⟨0, _⟩ => rfl | ⟨1, _⟩ => rfl)
  show P0 (ix1_0 (ix2 p q)) * Ideal.ofBits .f32 0x40000000#32
      - ((((Ideal.cmp .ogt ((multiReduction (F := Ideal) .add [1] S1024 (mulf P0 (broadcast S1024x1024 (Scalar.ofBits .f32 0x40000000#32))) 0x00000000#32
          reduces_S1024x1024_S1024 (.inl rfl) rfl) (ix1_1 (ix2 p q))) (Ideal.ofBits .f32 0x41200000#32)).setWidth 32).toInt : ℝ) : EReal)
    = x (ix2 (rowOf t p) q) * Ideal.ofBits .f32 0x40000000#32 - lowering x (rowOf t p)
  rw [h0, block_rowSum x t P0 hP p q, hP]
  exact sub_flag _ _ _

end Cert.KernelIdeal.Block

end
-- ==== Proof.KernelRows.lean ====
/-
  From the blocks to the whole array.

  The grid has 64 points. Point `t` loads rows 1024·t … 1024·t + 1023 of the argument and writes back the same rows
  of the result: both windows' block index at `t` is (t, 0), a block being 1024 whole rows. So what point `t` writes
  back is the `t`-th block of rows of `ShiftedRows.shifted` of the argument (`flushed_eq`), the 64 blocks tile the
  65536 rows — row `r` lies in block `r / 1024` (`covered`) —, and the result array ends at `shifted` of the
  argument (`final`, `run`). The argument array is as launched when the region is entered: the only host operation
  before it copies the argument into the result's buffer and does not write the argument.
-/
import proofs.«152421_j76166950027845_2_alg».proof.Proof.KernelBlock
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Rows

open Cert.KernelIdeal Cert.KernelIdeal.Gen Cert.KernelIdeal.ValueP Cert.KernelIdeal.Block Cert.ShiftedRows

variable (m : (ℓ : Loc nD τ sig) → Buf (Elt Ideal) ℓ) (ρ : Dev nD → PrngReg)

theorem hz : (![0, 0] : Fin 2 → Nat) = fun _ => 0 := funext fun a => by fin_cases a <;> rfl

/-- Where entry `y` of the `t`-th block of rows sits in the array. -/
def place (t : Fin 64) (y : S1024x1024.Idx) : Arr.Idx := ix2 (rowOf t (y 0)) (y 1)

/-- The body's output block, from a loaded block that is the `t`-th block of rows of `x`: the `t`-th block of rows
    of `shifted x`. (The body loads its whole input buffer and stores its whole output buffer once.) -/
theorem out_block (x : Arr.Idx → EReal) (t : Fin 64) (B : Vec Ideal S1024x1024 .f32)
    (hB : ∀ p q : Fin 1024, B (ix2 p q) = x (ix2 (rowOf t p) q)) :
    out0_1 (F := Ideal) B = fun y => shifted x (place t y) := by
  funext y
  obtain ⟨p, q, rfl⟩ : ∃ (p q : Fin 1024), y = ix2 p q := ⟨y 0, y 1, eq_ix2 y⟩
  have e : View.ld B r0_0 = B := View.ld_unit_zero (S := S1024x1024) hz _ B
  unfold out0_1
  rw [e]
  exact (canon1_eq B (ix2 p q)).trans (block_entry x t B hB p q)

/-- Both windows' block index at point `t` is (t, 0) (decided over the 64 points). -/
theorem index_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A grid point as a block number. -/
def blockOf (t : Fin cfg0.N) : Fin 64 := ⟨t.val, lt_of_lt_of_eq t.isLt N_0⟩

/-- The input window's block at point `t` is the `t`-th block of rows of the argument as launched. -/
theorem iblk_entry (c : Dev nD) (t : Fin cfg0.N) (p q : Fin 1024) :
    (iblk m c 0 t : Vec Ideal S1024x1024 .f32) (ix2 p q)
      = (m ((c : Thread nD τ).loc main_arg0) : Arr.Idx → EReal) (ix2 (rowOf (blockOf t) p) q) := by
  obtain ⟨e00, e01, -, -⟩ := index_facts t
  unfold iblk
  show V m c main_arg0 (((cfg0.win 0).blk t).view.emb (ix2 p q)) = _
  rw [V_main_arg0 m c]
  refine congrArg _ ?_
  funext a; apply Fin.ext
  match a with
  | ⟨0, _⟩ => show win0_0.index t (0 : Fin 2) * 1024 + 1 * p.val = 1024 * t.val + p.val; rw [e00]; omega
  | ⟨1, _⟩ => show win0_0.index t (1 : Fin 2) * 1024 + 1 * q.val = q.val; rw [e01]; omega

/-- What point `t` writes back is block `t` of `shifted` of the argument. -/
theorem flushed_eq (c : Dev nD) (t : Fin cfg0.N) :
    (dats m 0 c).flushed 1 t
      = ((cfg0.win 1).blk t).view.read (Elt Ideal) (shifted (m ((c : Thread nD τ).loc main_arg0))) := by
  obtain ⟨-, -, e10, e11⟩ := index_facts t
  rw [flushed1, out_block (m ((c : Thread nD τ).loc main_arg0)) (blockOf t) (iblk m c 0 t) (iblk_entry m c t)]
  funext j
  show shifted (m ((c : Thread nD τ).loc main_arg0)) (place (blockOf t) j)
    = shifted (m ((c : Thread nD τ).loc main_arg0)) (((cfg0.win 1).blk t).view.emb j)
  refine congrArg _ ?_
  funext a; apply Fin.ext
  match a with
  | ⟨0, _⟩ => show 1024 * t.val + (j 0).val = win0_1.index t (0 : Fin 2) * 1024 + 1 * (j 0).val; rw [e10]; omega
  | ⟨1, _⟩ => show (j 1).val = win0_1.index t (1 : Fin 2) * 1024 + 1 * (j 1).val; rw [e11]; omega

/-- An index of the array is in point `t`'s block iff each coordinate is in the block's range on its axis. -/
theorem mem_blk (t : Fin cfg0.N) (i : S65536x1024.Idx) :
    i ∈ ((cfg0.win 1).blk t).view.set ↔ ∀ a : Fin 2, win0_1.index t a * S1024x1024.size a ≤ (i a).val
      ∧ (i a).val < win0_1.index t a * S1024x1024.size a + S1024x1024.size a := by
  show i ∈ ((View.whole main_v0).slice (win0_1.rect t)).set ↔ _
  rw [View.set_slice_whole, Rect.mem_set_unit]
  exact Iff.rfl

/-- Every index of the array is in some point's block: row `r` is in block `r / 1024`. -/
theorem covered (i : S65536x1024.Idx) :
    ∃ t : Fin cfg0.N, (cfg0.win 1).flush t = true ∧ i ∈ ((cfg0.win 1).blk t).view.set := by
  have hi0 : (i 0).val < 65536 := (i 0).isLt
  have hi1 : (i 1).val < 1024 := (i 1).isLt
  have hN : cfg0.N = 64 := N_0
  obtain ⟨t, ht⟩ : ∃ t : Fin cfg0.N, t.val = (i 0).val / 1024 := ⟨⟨(i 0).val / 1024, by omega⟩, rfl⟩
  obtain ⟨-, -, e10, e11⟩ := index_facts t
  refine ⟨t, flush0_1 t, ?_⟩
  rw [mem_blk]
  intro a
  match a with
  | ⟨0, _⟩ =>
    show win0_1.index t (0 : Fin 2) * 1024 ≤ (i 0).val ∧ (i 0).val < win0_1.index t (0 : Fin 2) * 1024 + 1024
    rw [e10, ht]; omega
  | ⟨1, _⟩ =>
    show win0_1.index t (1 : Fin 2) * 1024 ≤ (i 1).val ∧ (i 1).val < win0_1.index t (1 : Fin 2) * 1024 + 1024
    rw [e11]; omega

/-- The result array after the run is `shifted` of the argument as launched. -/
theorem final (c : Dev nD) : (dats m 0 c).arrAt 1 cfg0.N = shifted (m ((c : Thread nD τ).loc main_arg0)) :=
  (dats m 0 c).arrAt_eq_of_cover 1 (shifted (m ((c : Thread nD τ).loc main_arg0))) (fun t _ => flushed_eq m c t) covered

/-- The kernel's run: every weakly fair execution terminates with the result array at `shifted` of the argument and
    the argument unchanged. -/
theorem run : θ_run defs (onTc (τ := τ) (main (F := Ideal))) ⟨m, fun _ => 0, ρ⟩ fun r => ∀ c : Dev nD,
      r.2.mem ((c : Thread nD τ).loc main_v0) = shifted (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Rows

end
-- ==== Proof.ReferenceRows.lean ====
/-
  The reference computes `ShiftedRows.shifted`.

  Read one operation at a time, the reference's result at row `r`, column `c` chooses — by the bit of
  "the row's sum of doubled entries exceeds ten" — between the doubled entry less one and the doubled entry.
  The bit is computed once per row ([65536]), laid out as a column ([65536, 1]) and spread over the columns
  ([65536, 1024]); followed back through those two broadcasts, position (r, c) reads the bit of row `r`, whose sum
  runs over the entries (r, k). The host's sum starts from the zero word, which adds nothing.
-/
import proofs.«152421_j76166950027845_2_alg».proof.Proof.Gen.ReferenceIdeal.Read
import proofs.«152421_j76166950027845_2_alg».proof.Proof.ShiftedRows

noncomputable section

open Idealize.ShloMosaic Idealize.ShloMosaic.ValueIdx

namespace Cert.ReferenceIdeal.RefValue

open Cert.ReferenceIdeal Cert.ReferenceIdeal.Read Cert.ShiftedRows

/-- Position (r, c) of the spread comparison, followed back through the two broadcasts to the row sums and from
    there into the summed array at the `k`-th term: entry (r, k). -/
theorem summand_index (r : Fin 65536) (c k : Fin 1024) :
    idx_main_v2 (idx_main_v5 (idx_main_call0_v0 (ix2 r c))) k = ix2 r k :=
  funext fun a => Fin.ext (by match a with | ⟨0, _⟩ => rfl | ⟨1, _⟩ => rfl)

/-- The reference's result array, as a function of its argument array, is `shifted`. -/
theorem reference_eq (x : FVec Ideal S65536x1024 .f32) : val_main_v8 (F := Ideal) x = shifted x := by
  funext i
  obtain ⟨r, c, rfl⟩ : ∃ (r : Fin 65536) (c : Fin 1024), i = ix2 r c := ⟨i 0, i 1, eq_ix2 i⟩
  rw [shifted_ix2]
  simp only [val_main_v8_apply, val_main_call0_v0_apply, val_main_v5_apply, val_main_v4_apply, val_main_v2_apply,
    val_main_v3_apply, val_main_cst_1_apply, val_main_cst_0_apply, val_main_v7_apply, val_main_v6_apply,
    val_main_cst_2_apply, val_main_v1_apply, val_main_v0_apply, val_main_cst_apply, summand_index,
    Ideal.ofBits_def, Ideal.mulf_def, Ideal.subf_def, Ideal.cmpf_def, Ideal.ofBits_zero_f32, zero_add]
  exact select_sub _ _ _

end Cert.ReferenceIdeal.RefValue

end
-- ==== Proof.lean ====
/-
  The kernel doubles an array of 65536 rows of 1024 floats and lowers by one every row whose doubled entries sum to
  more than ten; the reference does the same with jnp. On the extended reals both results are, at row `r` and
  column `c`,

      2 · x (r, c) − [ Σ_k 2 · x (r, k) > 10 ]        (`ShiftedRows.shifted`, Proof/ShiftedRows.lean).

  The kernel (Proof/KernelBlock.lean, Proof/KernelRows.lean) works block by block, 1024 whole rows at each of its 64
  grid points: a block's row sums are the array's row sums, the comparison's bit is turned into the number one or
  zero and subtracted from the row, and the 64 blocks tile the array. The reference (Proof/ReferenceRows.lean)
  computes the bit once per row, spreads it over the columns and chooses between the doubled entry less one and
  the doubled entry. A set bit reads as one, a clear bit as zero, and subtracting zero changes nothing: the two
  are one function, whatever the entries (the precondition is not used by the value argument).

  The three frames are the generated frame runs (for the reference, its generated run with the result dropped); the
  idealized kernel is the kernel's own text read on the extended reals, so there is nothing to preserve.
-/
import proofs.«152421_j76166950027845_2_alg».proof.Defs
import proofs.«152421_j76166950027845_2_alg».proof.Proof.Gen.Kernel
import proofs.«152421_j76166950027845_2_alg».proof.Proof.Gen.Kernel.Skeleton
import proofs.«152421_j76166950027845_2_alg».proof.Proof.Gen.Kernel.Launch
import proofs.«152421_j76166950027845_2_alg».proof.Proof.Gen.Kernel.Points
import proofs.«152421_j76166950027845_2_alg».proof.Proof.Gen.Kernel.Frame
import proofs.«152421_j76166950027845_2_alg».proof.Proof.Gen.KernelIdeal
import proofs.«152421_j76166950027845_2_alg».proof.Proof.Gen.KernelIdeal.Skeleton
import proofs.«152421_j76166950027845_2_alg».proof.Proof.Gen.KernelIdeal.Launch
import proofs.«152421_j76166950027845_2_alg».proof.Proof.Gen.KernelIdeal.Points
import proofs.«152421_j76166950027845_2_alg».proof.Proof.Gen.KernelIdeal.Frame
import proofs.«152421_j76166950027845_2_alg».proof.Proof.Gen.ReferenceIdeal
import proofs.«152421_j76166950027845_2_alg».proof.Proof.Gen.Pre_finite_inputs
import proofs.«152421_j76166950027845_2_alg».proof.Proof.Gen.ReferenceIdeal.Run
import proofs.«152421_j76166950027845_2_alg».proof.Proof.Gen.ReferenceIdeal.Read
import proofs.«152421_j76166950027845_2_alg».proof.Proof.KernelRows
import proofs.«152421_j76166950027845_2_alg».proof.Proof.ReferenceRows
import Idealize.ShloMosaic.Adequacy
import Idealize.ShloMosaic.Init

noncomputable section

namespace Cert.Proof

open Idealize.ShloMosaic Idealize.ShloMosaic.TcCoe Idealize.SL.Sem

/-- The kernel as printed runs and leaves its argument as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From memories that agree on the argument, the kernel's result array ends at `shifted` of the argument (the
    kernel's run, block by block) and so does the reference's (its run, operation by operation). -/
theorem algebraic : Cert.algebraic_KernelIdeal_ReferenceIdeal := by
  intro m ρ m' ρ' _ hagree
  refine ⟨fun c => Cert.ShiftedRows.shifted (m ((c : Thread Cert.KernelIdeal.nD Cert.KernelIdeal.τ).loc Cert.KernelIdeal.main_arg0)),
    Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.reference_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
